-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 49
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128, .f32⟩
  | .hbm, ⟨46, _⟩ => ⟨S1x128, .f32⟩
  | .hbm, ⟨47, _⟩ => ⟨S1x40, .f32⟩
  | .hbm, ⟨48, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x40, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x40.size a ≤ S128x40.size a
  hwx1_6 : ∀ i : grid1.Coords, EltTy.bits .f32 = 32 ∨ (Rect.block (s := S128x40) S128x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x40.size a ≤ S1x40.size a
  hwx1_7 : ∀ i : grid1.Coords, EltTy.bits .f32 = 32 ∨ (Rect.block (s := S1x40) S1x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x40.size a ≤ S100000x40.size a
  hwx1_8 : ∀ i : grid1.Coords, EltTy.bits .f32 = 32 ∨ (Rect.block (s := S100000x40) S4000x40.size (cc1_transform_8 i) (hinb1_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S4000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x40, .f32⟩
  | .hbm, ⟨73, _⟩ => ⟨S1x40, .f32⟩
  | .hbm, ⟨74, _⟩ => ⟨S100000x40, .f32⟩
  | .hbm, ⟨75, _⟩ => ⟨S100000x40, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S100000x1, .f32⟩
  | .hbm, ⟨82, _⟩ => ⟨S100000x40, .f32⟩
  | .hbm, ⟨83, _⟩ => ⟨S100000x40, .f32⟩
  | .hbm, ⟨84, _⟩ => ⟨S100000x40, .f32⟩
  | .hbm, ⟨85, _⟩ => ⟨S_, .f32⟩
  | .hbm, ⟨86, _⟩ => ⟨S100000, .f32⟩
  | .hbm, ⟨87, _⟩ => ⟨S100000x1, .f32⟩
  | .hbm, ⟨88, _⟩ => ⟨S100000x1, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call2_cst : Ref sig .tc := ⟨.hbm, 62, rfl⟩
abbrev main_call2_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call3_cst : Ref sig .tc := ⟨.hbm, 69, rfl⟩
abbrev main_call3_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call4_cst : Ref sig .tc := ⟨.hbm, 76, rfl⟩
abbrev main_call4_v0 : Ref sig .tc := ⟨.hbm, 77, rfl⟩
abbrev main_call4_cst_0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_cst_1 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_v50 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibTypedBinary.lean ====
/-
  A two-operand host operation stated through typed references is the plain operation.

  A typed reference pairs a buffer with an equation saying its type is a given one; an operation stated through typed
  references applies its function between transports of the operands and of the result along those equations. Taking
  the references apart and substituting the equations, the transports are along `rfl`, so the operation is the plain
  one with the same function. The statement is over an ARBITRARY function: nothing of the function is looked into,
  which matters when the function is a computable fold over a large index set (a maximum along an axis) that must
  never be unfolded.
-/
import Idealize.ShloMosaic.Lib.StableHlo.Run

namespace Idealize.ShloMosaic.StableHlo

open Idealize.ShloMosaic Idealize.SL.Sem

variable {τ : Topo} {sig : RefSig}

/-- `TRef.binary x z y f` is `binary x.ref z.ref y.ref f'` whenever `f'` is `f` (heterogeneously: their types differ
    only by the references' type equations). -/
theorem typed_binary_eq {Val : EltTy → Type} {Ta Tb Ty : BufTy} (x : TRef sig Ta) (z : TRef sig Tb) (y : TRef sig Ty)
    (f : Ta.Contents Val → Tb.Contents Val → Ty.Contents Val)
    (f' : x.ref.ty.Contents Val → z.ref.ty.Contents Val → y.ref.ty.Contents Val) (hf : HEq f f') :
    (TRef.binary (τ := τ) x z y f : HloOp τ sig Val) = StableHlo.binary (τ := τ) x.ref z.ref y.ref f' x.dev z.dev y.dev := by
  obtain ⟨a, ha, da, sa⟩ := x
  obtain ⟨b, hb, db, sb⟩ := z
  obtain ⟨c, hc, dc, sc⟩ := y
  subst ha hb hc
  cases hf
  rfl

end Idealize.ShloMosaic.StableHlo
-- ==== Proof.RefRun.lean ====
/-
  The reference's run, by hand.

  The reference's @main is a straight line of 79 host operations: the two rows of the edge list, the source
  indices shifted where negative, the gather of feature rows and the scatter-add into a zero array (the
  aggregation), the sum with the features, two dense layers each followed by the rectifier (jax outlines the
  rectifier as a function; its three operations stand at each call site), the same once more on the result, the
  classifier, and the log-softmax (outlined too; its sixteen operations at the call site). Every weakly fair
  execution runs them in order, so each buffer ends at the composition of the operations that feed it, and no
  operation writes an argument.

  The operations of the two outlined functions are stated (in the generated list) through typed references whose
  functions transport values along the buffers' type equations. Those equations hold by computation, so each
  transport is the identity, and the same 79 operations can be written with the plain builders (`plainOps`,
  equal to the generated list outright). Over the plain list the result buffer is, for any contents of the
  buffers, the last stage function of the reference read at the twelve arguments.
-/
import proofs.«161033_j72353019068534_2_alg».proof.Proof.RefReadPatched
import proofs.«161033_j72353019068534_2_alg».proof.Proof.LibTypedBinary

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 79 operations with the plain builders throughout. -/
abbrev plainOps : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_call0_cst ((constant S_ .f32 0x00000000#32) : (⟨S_, .f32⟩ : BufTy).Contents (Elt F)),
    unary main_call0_cst main_call0_v0 ((broadcastInDim S100000x128 ![] bcast_S_S100000x128) : (⟨S_, .f32⟩ : BufTy).Contents (Elt F) → (⟨S100000x128, .f32⟩ : BufTy).Contents (Elt F)),
    binary main_v18 main_call0_v0 main_v19 (maximumf : (⟨S100000x128, .f32⟩ : BufTy).Contents (Elt F) → (⟨S100000x128, .f32⟩ : BufTy).Contents (Elt F) → (⟨S100000x128, .f32⟩ : BufTy).Contents (Elt F)),
    binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    nullary main_call1_cst ((constant S_ .f32 0x00000000#32) : (⟨S_, .f32⟩ : BufTy).Contents (Elt F)),
    unary main_call1_cst main_call1_v0 ((broadcastInDim S100000x128 ![] bcast_S_S100000x128) : (⟨S_, .f32⟩ : BufTy).Contents (Elt F) → (⟨S100000x128, .f32⟩ : BufTy).Contents (Elt F)),
    binary main_v23 main_call1_v0 main_v24 (maximumf : (⟨S100000x128, .f32⟩ : BufTy).Contents (Elt F) → (⟨S100000x128, .f32⟩ : BufTy).Contents (Elt F) → (⟨S100000x128, .f32⟩ : BufTy).Contents (Elt F)),
    nullary main_c_1 (constantI S_ 32 0#32),
    unary main_c_1 main_v25 (broadcastInDim S1600000 ![] bcast_S_S1600000 : (⟨S_, .i32⟩ : BufTy).Contents (Elt F) → (⟨S1600000, .i32⟩ : BufTy).Contents (Elt F)),
    binary main_v1 main_v25 main_v26 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v27 (broadcastInDim S1600000 ![] bcast_S_S1600000 : (⟨S_, .i32⟩ : BufTy).Contents (Elt F) → (⟨S1600000, .i32⟩ : BufTy).Contents (Elt F)),
    binary main_v1 main_v27 main_v28 (addi : (⟨S1600000, .i32⟩ : BufTy).Contents (Elt F) → (⟨S1600000, .i32⟩ : BufTy).Contents (Elt F) → (⟨S1600000, .i32⟩ : BufTy).Contents (Elt F)),
    ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v29 main_v30 (broadcastInDim S1600000x1 ![0] bcast_S1600000_S1600000x1_0 : (⟨S1600000, .i32⟩ : BufTy).Contents (Elt F) → (⟨S1600000x1, .i32⟩ : BufTy).Contents (Elt F)),
    binary main_v24 main_v30 main_v31 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_3 (constant S_ .f32 0x00000000#32),
    unary main_cst_3 main_v32 (broadcastInDim S100000x128 ![] bcast_S_S100000x128 : (⟨S_, .f32⟩ : BufTy).Contents (Elt F) → (⟨S100000x128, .f32⟩ : BufTy).Contents (Elt F)),
    unary main_v3 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v24 main_v34 main_v35 (addf : (⟨S100000x128, .f32⟩ : BufTy).Contents (Elt F) → (⟨S100000x128, .f32⟩ : BufTy).Contents (Elt F) → (⟨S100000x128, .f32⟩ : BufTy).Contents (Elt F)),
    binary main_v35 main_arg6 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (addf : (⟨S100000x128, .f32⟩ : BufTy).Contents (Elt F) → (⟨S100000x128, .f32⟩ : BufTy).Contents (Elt F) → (⟨S100000x128, .f32⟩ : BufTy).Contents (Elt F)),
    nullary main_call2_cst ((constant S_ .f32 0x00000000#32) : (⟨S_, .f32⟩ : BufTy).Contents (Elt F)),
    unary main_call2_cst main_call2_v0 ((broadcastInDim S100000x128 ![] bcast_S_S100000x128) : (⟨S_, .f32⟩ : BufTy).Contents (Elt F) → (⟨S100000x128, .f32⟩ : BufTy).Contents (Elt F)),
    binary main_v39 main_call2_v0 main_v40 (maximumf : (⟨S100000x128, .f32⟩ : BufTy).Contents (Elt F) → (⟨S100000x128, .f32⟩ : BufTy).Contents (Elt F) → (⟨S100000x128, .f32⟩ : BufTy).Contents (Elt F)),
    binary main_v40 main_arg8 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)),
    nullary main_call3_cst ((constant S_ .f32 0x00000000#32) : (⟨S_, .f32⟩ : BufTy).Contents (Elt F)),
    unary main_call3_cst main_call3_v0 ((broadcastInDim S100000x128 ![] bcast_S_S100000x128) : (⟨S_, .f32⟩ : BufTy).Contents (Elt F) → (⟨S100000x128, .f32⟩ : BufTy).Contents (Elt F)),
    binary main_v44 main_call3_v0 main_v45 (maximumf : (⟨S100000x128, .f32⟩ : BufTy).Contents (Elt F) → (⟨S100000x128, .f32⟩ : BufTy).Contents (Elt F) → (⟨S100000x128, .f32⟩ : BufTy).Contents (Elt F)),
    binary main_v45 main_arg10 main_v46 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg11 main_v47 (broadcastInDim S1x40 ![1] bcast_S40_S1x40_1 : (⟨S40, .f32⟩ : BufTy).Contents (Elt F) → (⟨S1x40, .f32⟩ : BufTy).Contents (Elt F)),
    unary main_v47 main_v48 (broadcastInDim S100000x40 ![0, 1] bcast_S1x40_S100000x40_0_1 : (⟨S1x40, .f32⟩ : BufTy).Contents (Elt F) → (⟨S100000x40, .f32⟩ : BufTy).Contents (Elt F)),
    binary main_v46 main_v48 main_v49 (addf : (⟨S100000x40, .f32⟩ : BufTy).Contents (Elt F) → (⟨S100000x40, .f32⟩ : BufTy).Contents (Elt F) → (⟨S100000x40, .f32⟩ : BufTy).Contents (Elt F)),
    nullary main_call4_cst ((constant S_ .f32 0xFF800000#32) : (⟨S_, .f32⟩ : BufTy).Contents (Elt F)),
    binary main_v49 main_call4_cst main_call4_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call4_cst_0 ((constant S_ .f32 0xFF800000#32) : (⟨S_, .f32⟩ : BufTy).Contents (Elt F)),
    unary main_call4_cst_0 main_call4_v1 ((broadcastInDim S100000 ![] bcast_S_S100000) : (⟨S_, .f32⟩ : BufTy).Contents (Elt F) → (⟨S100000, .f32⟩ : BufTy).Contents (Elt F)),
    binary main_call4_v1 main_call4_v0 main_call4_v2 (maximumf : (⟨S100000, .f32⟩ : BufTy).Contents (Elt F) → (⟨S100000, .f32⟩ : BufTy).Contents (Elt F) → (⟨S100000, .f32⟩ : BufTy).Contents (Elt F)),
    unary main_call4_v2 main_call4_v3 ((broadcastInDim S100000x1 ![0] bcast_S100000_S100000x1_0) : (⟨S100000, .f32⟩ : BufTy).Contents (Elt F) → (⟨S100000x1, .f32⟩ : BufTy).Contents (Elt F)),
    unary main_call4_v3 main_call4_v4 ((broadcastInDim S100000x40 ![0, 1] bcast_S100000x1_S100000x40_0_1) : (⟨S100000x1, .f32⟩ : BufTy).Contents (Elt F) → (⟨S100000x40, .f32⟩ : BufTy).Contents (Elt F)),
    binary main_v49 main_call4_v4 main_call4_v5 (subf : (⟨S100000x40, .f32⟩ : BufTy).Contents (Elt F) → (⟨S100000x40, .f32⟩ : BufTy).Contents (Elt F) → (⟨S100000x40, .f32⟩ : BufTy).Contents (Elt F)),
    unary main_call4_v5 main_call4_v6 (Host.exp : (⟨S100000x40, .f32⟩ : BufTy).Contents (Elt F) → (⟨S100000x40, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call4_v7 main_call4_v8 ((broadcastInDim S100000x1 ![0] bcast_S100000_S100000x1_0) : (⟨S100000, .f32⟩ : BufTy).Contents (Elt F) → (⟨S100000x1, .f32⟩ : BufTy).Contents (Elt F)),
    unary main_call4_v8 main_call4_v9 (Host.log : (⟨S100000x1, .f32⟩ : BufTy).Contents (Elt F) → (⟨S100000x1, .f32⟩ : BufTy).Contents (Elt F)),
    unary main_call4_v9 main_call4_v10 ((broadcastInDim S100000x40 ![0, 1] bcast_S100000x1_S100000x40_0_1) : (⟨S100000x1, .f32⟩ : BufTy).Contents (Elt F) → (⟨S100000x40, .f32⟩ : BufTy).Contents (Elt F)),
    binary main_call4_v5 main_call4_v10 main_v50 (subf : (⟨S100000x40, .f32⟩ : BufTy).Contents (Elt F) → (⟨S100000x40, .f32⟩ : BufTy).Contents (Elt F) → (⟨S100000x40, .f32⟩ : BufTy).Contents (Elt F)) ]

/-- The one operation whose function is a fold over every index of a 100000 × 40 array — the row maximum —: its
    typed-reference form is its plain form (`typed_binary_eq`, stated over an arbitrary function), the function untouched. -/
theorem rowmax_op_eq :
    (TRef.binary (TRef.of (T := ⟨S100000x40, .f32⟩) main_v49) (TRef.of (T := ⟨S_, .f32⟩) main_call4_cst) (TRef.of (T := ⟨S100000, .f32⟩) main_call4_v0)
        (fun x v => Host.reduce FloatOps.maximumf x v reducesTo_S100000x40_S100000_d1 h_S_) : HloOp τ sig (Elt F))
      = StableHlo.binary (τ := τ) (TRef.of (T := ⟨S100000x40, .f32⟩) main_v49).ref (TRef.of (T := ⟨S_, .f32⟩) main_call4_cst).ref (TRef.of (T := ⟨S100000, .f32⟩) main_call4_v0).ref
          (fun x v => Host.reduce FloatOps.maximumf x v reducesTo_S100000x40_S100000_d1 h_S_)
          (TRef.of (T := ⟨S100000x40, .f32⟩) main_v49).dev (TRef.of (T := ⟨S_, .f32⟩) main_call4_cst).dev (TRef.of (T := ⟨S100000, .f32⟩) main_call4_v0).dev :=
  typed_binary_eq _ _ _ _ _ HEq.rfl

set_option maxRecDepth 65536 in
set_option maxHeartbeats 4000000 in
/-- The generated operation list is this one: a typed reference's transports along an equation that holds by
    computation are the identity. -/
theorem ops_eq : (Cert.ReferenceIdeal.ValueP.ops : List (HloOp τ sig (Elt F))) = plainOps := by
  unfold Cert.ReferenceIdeal.ValueP.ops
  rw [rowmax_op_eq]
  rfl

set_option maxRecDepth 65536 in
set_option maxHeartbeats 4000000 in
/-- From any contents `W` of the buffers, the 79 operations leave the result buffer at the reference's last stage
    function of the twelve argument buffers' contents. -/
theorem result_of (W : Valuation τ sig (Elt F)) :
    StableHlo.after (Cert.ReferenceIdeal.ValueP.ops (F := F)) W (Proc.devRef .tc main_v50)
      = Cert.ReferenceIdeal.ReadP.val_main_v50 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_eq]
  after_results_simp
  rfl

set_option maxRecDepth 65536 in
set_option maxHeartbeats 31600000 in
/-- On every device, for any float values, from any memory with zero counters: every weakly fair execution of
    @main terminates with the result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Cert.ReferenceIdeal.ReadP.val_main_v50 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v50).trans (result_of _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.HandRun

end
-- ==== Proof.KernelWholeRun.lean ====
/-
  The idealized kernel's run with every buffer named. Its @main is four segments: the host operations that
  build the first aggregation and reshape two biases, the first pallas_call, the host operations that build the
  second aggregation (out of the first call's result) and reshape three biases, the second pallas_call. The
  generated frame runs exactly these segments and keeps, of the final memory, only that the arguments are
  unchanged. Here the same run keeps everything it knows: every unscoped buffer of a core ends at the fold of
  the four segments over the launch memory (`Gen.W4`), the result buffer among them.
-/
import proofs.«161033_j72353019068534_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every unscoped
    buffer of core `c` holds the fold of @main's four segments over the launch memory at that buffer. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer and the twelve arguments read off that run: the result at the fold's value, each
    argument as launched (no segment writes one). -/
theorem run_result : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_buffers m ρ)

end Cert.KernelIdeal.WholeRun

end
-- ==== Proof.RowSpec.lean ====
/-
  One node's row through the network, at the exact extended reals.

  Both programs compute, for every node r, a function of ONE row of node features u = x(r,·) + agg(r,·):
  two dense layers with a rectifier after each (the "MLP" of a graph-isomorphism layer), and, after the second
  such layer, a dense layer into 40 classes followed by the logarithm of the softmax along the row. Nothing of
  another node's row enters, so the whole comparison can be made one row at a time. This file states those row
  functions over plain `Fin`-indexed families; it imports neither program.

  The two float words that occur are kept as words: zero (the rectifier's floor and the sums' start) and minus
  infinity (the row maximum's start). The same word stands on both sides, so it is never evaluated, except that
  a sum started from the zero word is the sum (`Ideal.ofBits_zero_f32`), and that the maximum of the
  minus-infinity word with a maximum already started from it changes nothing (`max_rowMax`).
-/
import Idealize.ShloMosaic.PureOps.Ideal.Laws

open scoped BigOperators

noncomputable section

namespace Cert.GinRow

open Idealize.ShloMosaic

/-- The zero word and the minus-infinity word of f32, read at the exact extended reals. -/
abbrev zeroE : EReal := Ideal.ofBits .f32 0x00000000#32
abbrev negInfE : EReal := Ideal.ofBits .f32 0xFF800000#32

/-- A dense layer on one row: `u · W + b`. -/
def affine {k n : ℕ} (u : Fin k → EReal) (W : Fin k → Fin n → EReal) (b : Fin n → EReal) : Fin n → EReal :=
  fun c => (∑ j : Fin k, u j * W j c) + b c

/-- The rectifier, entry by entry: the maximum with the zero word. -/
def relu {n : ℕ} (v : Fin n → EReal) : Fin n → EReal := fun c => max (v c) zeroE

/-- The two-layer perceptron of one graph layer: dense, rectifier, dense, rectifier. -/
def mlp {k h n : ℕ} (u : Fin k → EReal) (Wa : Fin k → Fin h → EReal) (ba : Fin h → EReal)
    (Wb : Fin h → Fin n → EReal) (bb : Fin n → EReal) : Fin n → EReal :=
  relu (affine (relu (affine u Wa ba)) Wb bb)

/-- A row's maximum, started from the minus-infinity word. -/
def rowMax {n : ℕ} (l : Fin n → EReal) : EReal := (Finset.univ : Finset (Fin n)).fold max negInfE l

/-- The logarithm of the softmax along a row, in the shifted form both programs use:
    with `s = l − max l`, entry `c` is `s c − log (∑ exp s)`. -/
def logSoftmax {n : ℕ} (l : Fin n → EReal) : Fin n → EReal :=
  fun c => (l c - rowMax l) - Ideal.log (∑ k : Fin n, Ideal.exp (l k - rowMax l))

/-- The second graph layer's perceptron followed by the classifier and the log-softmax. -/
def head {k h n o : ℕ} (u : Fin k → EReal) (Wa : Fin k → Fin h → EReal) (ba : Fin h → EReal)
    (Wb : Fin h → Fin n → EReal) (bb : Fin n → EReal) (Wc : Fin n → Fin o → EReal) (bc : Fin o → EReal) : Fin o → EReal :=
  logSoftmax (affine (mlp u Wa ba Wb bb) Wc bc)

/-- A maximum that was started from the minus-infinity word is not below it, so taking the maximum with that
    word once more changes nothing (the reference does so, the kernel does not). -/
theorem max_rowMax {n : ℕ} (l : Fin n → EReal) : max negInfE (rowMax l) = rowMax l :=
  max_eq_right ((Finset.le_fold_max negInfE).mpr (Or.inl le_rfl))

/-- A matrix given row by row: entry (r, q) is `f r q`. -/
def ofRows {R C : ℕ} (f : Fin R → Fin C → EReal) : (⟨2, ![R, C]⟩ : Shape).Idx → EReal := fun i => f (i 0) (i 1)

/-- The perceptron depends on its five operands and the entry only through their values. -/
theorem mlp_congr {k h n : ℕ} {u u' : Fin k → EReal} {Wa Wa' : Fin k → Fin h → EReal} {ba ba' : Fin h → EReal}
    {Wb Wb' : Fin h → Fin n → EReal} {bb bb' : Fin n → EReal} {q q' : Fin n}
    (hu : ∀ j, u j = u' j) (hWa : ∀ j c, Wa j c = Wa' j c) (hba : ∀ c, ba c = ba' c)
    (hWb : ∀ j c, Wb j c = Wb' j c) (hbb : ∀ c, bb c = bb' c) (hq : q = q') :
    mlp u Wa ba Wb bb q = mlp u' Wa' ba' Wb' bb' q' := by
  subst hq
  rw [show u = u' from funext hu, show Wa = Wa' from funext fun j => funext (hWa j), show ba = ba' from funext hba,
    show Wb = Wb' from funext fun j => funext (hWb j), show bb = bb' from funext hbb]

/-- Likewise the second layer with the classifier and the log-softmax. -/
theorem head_congr {k h n o : ℕ} {u u' : Fin k → EReal} {Wa Wa' : Fin k → Fin h → EReal} {ba ba' : Fin h → EReal}
    {Wb Wb' : Fin h → Fin n → EReal} {bb bb' : Fin n → EReal} {Wc Wc' : Fin n → Fin o → EReal} {bc bc' : Fin o → EReal} {q q' : Fin o}
    (hu : ∀ j, u j = u' j) (hWa : ∀ j c, Wa j c = Wa' j c) (hba : ∀ c, ba c = ba' c)
    (hWb : ∀ j c, Wb j c = Wb' j c) (hbb : ∀ c, bb c = bb' c) (hWc : ∀ j c, Wc j c = Wc' j c) (hbc : ∀ c, bc c = bc' c) (hq : q = q') :
    head u Wa ba Wb bb Wc bc q = head u' Wa' ba' Wb' bb' Wc' bc' q' := by
  subst hq
  rw [show u = u' from funext hu, show Wa = Wa' from funext fun j => funext (hWa j), show ba = ba' from funext hba,
    show Wb = Wb' from funext fun j => funext (hWb j), show bb = bb' from funext hbb,
    show Wc = Wc' from funext fun j => funext (hWc j), show bc = bc' from funext hbc]

end Cert.GinRow

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«161033_j72353019068534_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockRows.lean ====
/-
  A block of rows through the network's operations, read at one entry.

  A kernel's grid point holds a block of R node rows (R = 4000 here, but nothing below depends on it). Each
  operation it applies to the block either acts entry by entry or acts on one row at a time: the matrix product
  with a resident weight matrix into a zero accumulator (entry (p, q) is the sum over the contracted coordinate
  of row p of the left operand against column q of the right), a bias row broadcast down the block, the maximum
  and the sum along a row. So an entry (p, q) of the block's result is the row function of `RowSpec` applied to
  row p of the block's input, at q. These are the statements, over variables of any block height.
-/
import proofs.«161033_j72353019068534_2_alg».proof.Proof.RowSpec
import proofs.«161033_j72353019068534_2_alg».proof.Proof.LibPlainMatmul
import proofs.«161033_j72353019068534_2_alg».proof.Proof.LibLaneSum
import proofs.«161033_j72353019068534_2_alg».proof.Proof.LibLaneMax
import proofs.«161033_j72353019068534_2_alg».proof.Proof.LibColumnCast
import proofs.«161033_j72353019068534_2_alg».proof.Proof.LibColumnBroadcast
import Idealize.ShloMosaic.Lib.ValueLayout
import Idealize.ShloMosaic.Lib.ValueIdx
import Idealize.ShloMosaic.Lib.Pipeline.Value

open scoped BigOperators

noncomputable section

namespace Cert.GinRow

open Idealize.ShloMosaic Idealize.ShloMosaic.ValueIdx

variable {R k n : ℕ}

/-- A rectified dense layer of a block: the product into a zero accumulator, plus a bias row broadcast down the
    block, floored at the zero word. Entry (p, q) is the row function of row p, at q. -/
theorem dense_relu_apply {φ₁ φ₂ : FTy}
    (w : DotDims.WF ⟨2, ![R, k]⟩ ⟨2, ![k, n]⟩ ⟨2, ![R, n]⟩ [1] [0] [0] [1] [] [])
    (A : FVec Ideal ⟨2, ![R, k]⟩ φ₁) (B : FVec Ideal ⟨2, ![k, n]⟩ φ₂) (bias : FVec Ideal ⟨2, ![1, n]⟩ .f32)
    (hb : (⟨2, ![1, n]⟩ : Shape).Broadcasts ⟨2, ![R, n]⟩) (p : Fin R) (q : Fin n) :
    maximumf (addf (matmul (⟨[1], [0], [0], [1], [], [], w⟩ : DotDims ⟨2, ![R, k]⟩ ⟨2, ![k, n]⟩ ⟨2, ![R, n]⟩) none A B
          (constant (F := Ideal) ⟨2, ![R, n]⟩ .f32 0x00000000#32)) (broadcastTo ⟨2, ![R, n]⟩ bias hb))
        (broadcast ⟨2, ![R, n]⟩ (Scalar.ofBits (F := Ideal) .f32 0x00000000#32)) (ix2 p q)
      = relu (affine (fun j => A (ix2 p j)) (fun j c => B (ix2 j c)) (fun c => bias (ix2 (0 : Fin 1) c))) q := by
  rw [maximumf_apply, addf_apply, matmul_plain_zero_apply, broadcastTo_1b_ab_apply]
  rfl

/-- The same layer without the rectifier (the classifier). -/
theorem dense_apply {φ₁ φ₂ : FTy}
    (w : DotDims.WF ⟨2, ![R, k]⟩ ⟨2, ![k, n]⟩ ⟨2, ![R, n]⟩ [1] [0] [0] [1] [] [])
    (A : FVec Ideal ⟨2, ![R, k]⟩ φ₁) (B : FVec Ideal ⟨2, ![k, n]⟩ φ₂) (bias : FVec Ideal ⟨2, ![1, n]⟩ .f32)
    (hb : (⟨2, ![1, n]⟩ : Shape).Broadcasts ⟨2, ![R, n]⟩) (p : Fin R) (q : Fin n) :
    addf (matmul (⟨[1], [0], [0], [1], [], [], w⟩ : DotDims ⟨2, ![R, k]⟩ ⟨2, ![k, n]⟩ ⟨2, ![R, n]⟩) none A B
          (constant (F := Ideal) ⟨2, ![R, n]⟩ .f32 0x00000000#32)) (broadcastTo ⟨2, ![R, n]⟩ bias hb) (ix2 p q)
      = affine (fun j => A (ix2 p j)) (fun j c => B (ix2 j c)) (fun c => bias (ix2 (0 : Fin 1) c)) q := by
  rw [addf_apply, matmul_plain_zero_apply, broadcastTo_1b_ab_apply]
  rfl

/-- The tail of the second kernel on a block of logits L: subtract each row's maximum (a column, broadcast across
    the row), exponentiate, sum along the row, take the logarithm of that column and subtract it across the row.
    Entry (p, q) is the log-softmax of row p of L, at q. -/
theorem logSoftmax_block_apply (L : FVec Ideal ⟨2, ![R, n]⟩ .f32)
    (hred : (⟨2, ![R, n]⟩ : Shape).Reduces [1] ⟨1, ![R]⟩) (hφ : FKind.Formats .f32)
    (hmax : (0xFF800000#32 : BitVec 32) = FKind.maximumf.neutral .f32 hφ)
    (hadd : (0x00000000#32 : BitVec 32) = FKind.add.neutral .f32 hφ)
    (hcast : (⟨1, ![R]⟩ : Shape).ShapeCasts ⟨2, ![R, 1]⟩) (hbc : (⟨2, ![R, 1]⟩ : Shape).Broadcasts ⟨2, ![R, n]⟩)
    (p : Fin R) (q : Fin n) :
    subf (subf L (broadcastTo ⟨2, ![R, n]⟩ (shapeCast ⟨2, ![R, 1]⟩ (multiReduction .maximumf [1] ⟨1, ![R]⟩ L 0xFF800000#32 hred hφ hmax) hcast) hbc))
        (broadcastTo ⟨2, ![R, n]⟩ (log (shapeCast ⟨2, ![R, 1]⟩ (multiReduction .add [1] ⟨1, ![R]⟩
          (exp (subf L (broadcastTo ⟨2, ![R, n]⟩ (shapeCast ⟨2, ![R, 1]⟩ (multiReduction .maximumf [1] ⟨1, ![R]⟩ L 0xFF800000#32 hred hφ hmax) hcast) hbc)))
          0x00000000#32 hred hφ hadd) hcast)) hbc) (ix2 p q)
      = logSoftmax (fun c => L (ix2 p c)) q := by
  have hs : ∀ c : Fin n, subf L (broadcastTo ⟨2, ![R, n]⟩ (shapeCast ⟨2, ![R, 1]⟩
        (multiReduction .maximumf [1] ⟨1, ![R]⟩ L 0xFF800000#32 hred hφ hmax) hcast) hbc) (ix2 p c)
      = L (ix2 p c) - rowMax (fun c => L (ix2 p c)) := by
    intro c
    rw [subf_apply, broadcastTo_a1_ab_apply, shapeCast_a_a1_apply, multiReduction_maximumf_rows_apply]
    rfl
  rw [subf_apply, hs q, broadcastTo_a1_ab_apply]
  show _ - Ideal.log (shapeCast ⟨2, ![R, 1]⟩ _ hcast (ix2 p (0 : Fin 1))) = _
  rw [shapeCast_a_a1_apply, multiReduction_add_rows_apply]
  unfold logSoftmax
  refine congrArg (fun s => (L (ix2 p q) - rowMax (fun c => L (ix2 p c))) - Ideal.log s) ?_
  exact Finset.sum_congr rfl fun c _ => congrArg Ideal.exp (hs c)

end Cert.GinRow

end
-- ==== Proof.KernelBodies.lean ====
/-
  What the two kernel bodies store, read at one entry of the stored block.

  The first body stores, for its block of 4000 node rows, the two-layer perceptron of each row of
  (features block + aggregation block), with the four resident operands as the weights and (one-row) biases. The
  second body does the same with its own weights, then the classifier and the log-softmax along each row of the
  4000 × 40 block of logits. The roundings to bf16 in front of each product (`truncf .bf16 …`) are the identity at the
  exact extended reals — by the definition of that reading of the floats (`Ideal.truncf_def`, a `rfl`), which is how the
  steps below use it: an entry of a rounded operand is read as the operand's entry —, and the casts of a block to its
  own shape are the identity everywhere (`shapeCast_self`).
-/
import proofs.«161033_j72353019068534_2_alg».proof.Proof.Gen.KernelIdeal.Skeleton
import proofs.«161033_j72353019068534_2_alg».proof.Proof.BlockRows

open scoped BigOperators

noncomputable section

namespace Cert.KernelIdeal.Bodies

open Idealize.ShloMosaic Idealize.ShloMosaic.ValueIdx Cert.KernelIdeal Cert.KernelIdeal.Gen Cert.GinRow

/-- The first body's stored block at (p, q): the perceptron of row p of the two input blocks' sum. -/
theorem layer1_apply (v0 v1 : Vec Ideal S4000x128 .f32) (v5 : Vec Ideal S128x128 .f32) (v8 : Vec Ideal S1x128 .f32)
    (v15 : Vec Ideal S128x128 .f32) (v18 : Vec Ideal S1x128 .f32) (p : Fin 4000) (q : Fin 128) :
    k0_pay1 (F := Ideal) v0 v1 v5 v8 v15 v18 (ix2 p q)
      = mlp (fun j => v0 (ix2 p j) + v1 (ix2 p j)) (fun j c => v5 (ix2 j c)) (fun c => v8 (ix2 (0 : Fin 1) c))
          (fun j c => v15 (ix2 j c)) (fun c => v18 (ix2 (0 : Fin 1) c)) q := by
  unfold k0_pay1
  rw [shapeCast_self v1, shapeCast_self v8, shapeCast_self v18]
  refine (dense_relu_apply dot_S4000x128_S128x128_S4000x128_1_0_0_1_n_n_wf _ _ _ broadcasts_S1x128_S4000x128 p q).trans ?_
  unfold mlp
  refine congrArg (fun f => relu (affine f (fun j c => v15 (ix2 j c)) (fun c => v18 (ix2 (0 : Fin 1) c))) q) (funext fun j => ?_)
  exact dense_relu_apply dot_S4000x128_S128x128_S4000x128_1_0_0_1_n_n_wf _ _ _ broadcasts_S1x128_S4000x128 p j

/-- The second body's stored block at (p, q): the perceptron of row p of the two input blocks' sum, the classifier,
    and the log-softmax of that row of logits. (Its first part computes the logits minus each row's maximum; the
    rest exponentiates, sums along the row, and subtracts the logarithm.) -/
theorem head_apply (v0 v2 : Vec Ideal S4000x128 .f32) (v6 : Vec Ideal S128x128 .f32) (v9 : Vec Ideal S1x128 .f32)
    (v16 : Vec Ideal S128x128 .f32) (v19 : Vec Ideal S1x128 .f32) (v26 : Vec Ideal S128x40 .f32) (v29 : Vec Ideal S1x40 .f32)
    (p : Fin 4000) (q : Fin 40) :
    k1_pay1 (F := Ideal) (k1_pay2 (F := Ideal) v0 v2 v6 v9 v16 v19 v26 v29) (ix2 p q)
      = head (fun j => v0 (ix2 p j) + v2 (ix2 p j)) (fun j c => v6 (ix2 j c)) (fun c => v9 (ix2 (0 : Fin 1) c))
          (fun j c => v16 (ix2 j c)) (fun c => v19 (ix2 (0 : Fin 1) c)) (fun j c => v26 (ix2 j c)) (fun c => v29 (ix2 (0 : Fin 1) c)) q := by
  unfold k1_pay1 k1_pay2
  rw [shapeCast_self v0, shapeCast_self v2, shapeCast_self v9, shapeCast_self v19, shapeCast_self v29]
  refine (logSoftmax_block_apply _ reduces_S4000x40_S4000 (.inl rfl) rfl rfl shapeCasts_S4000_S4000x1 broadcasts_S4000x1_S4000x40 p q).trans ?_
  unfold head
  refine congrArg (fun l => logSoftmax l q) (funext fun c => ?_)
  refine (dense_apply dot_S4000x128_S128x40_S4000x40_1_0_0_1_n_n_wf _ _ _ broadcasts_S1x40_S4000x40 p c).trans ?_
  refine congrArg (fun f => affine f (fun j c => v26 (ix2 j c)) (fun c => v29 (ix2 (0 : Fin 1) c)) c) (funext fun j => ?_)
  refine (dense_relu_apply dot_S4000x128_S128x128_S4000x128_1_0_0_1_n_n_wf _ _ _ broadcasts_S1x128_S4000x128 p j).trans ?_
  unfold mlp
  refine congrArg (fun f => relu (affine f (fun j c => v16 (ix2 j c)) (fun c => v19 (ix2 (0 : Fin 1) c))) j) (funext fun i => ?_)
  exact dense_relu_apply dot_S4000x128_S128x128_S4000x128_1_0_0_1_n_n_wf _ _ _ broadcasts_S1x128_S4000x128 p i

/-- The same two readings at an index given whole rather than by its coordinates. -/
theorem layer1_at (v0 v1 : Vec Ideal S4000x128 .f32) (v5 : Vec Ideal S128x128 .f32) (v8 : Vec Ideal S1x128 .f32)
    (v15 : Vec Ideal S128x128 .f32) (v18 : Vec Ideal S1x128 .f32) (y : S4000x128.Idx) :
    k0_pay1 (F := Ideal) v0 v1 v5 v8 v15 v18 y
      = mlp (fun j => v0 (ix2 (y 0 : Fin 4000) j) + v1 (ix2 (y 0 : Fin 4000) j)) (fun j c => v5 (ix2 j c)) (fun c => v8 (ix2 (0 : Fin 1) c))
          (fun j c => v15 (ix2 j c)) (fun c => v18 (ix2 (0 : Fin 1) c)) (y 1 : Fin 128) := by
  obtain ⟨p, q, rfl⟩ : ∃ (p : Fin 4000) (q : Fin 128), y = ix2 p q := ⟨y 0, y 1, eq_ix2 y⟩
  exact layer1_apply v0 v1 v5 v8 v15 v18 p q

theorem head_at (v0 v2 : Vec Ideal S4000x128 .f32) (v6 : Vec Ideal S128x128 .f32) (v9 : Vec Ideal S1x128 .f32)
    (v16 : Vec Ideal S128x128 .f32) (v19 : Vec Ideal S1x128 .f32) (v26 : Vec Ideal S128x40 .f32) (v29 : Vec Ideal S1x40 .f32)
    (y : S4000x40.Idx) :
    k1_pay1 (F := Ideal) (k1_pay2 (F := Ideal) v0 v2 v6 v9 v16 v19 v26 v29) y
      = head (fun j => v0 (ix2 (y 0 : Fin 4000) j) + v2 (ix2 (y 0 : Fin 4000) j)) (fun j c => v6 (ix2 j c)) (fun c => v9 (ix2 (0 : Fin 1) c))
          (fun j c => v16 (ix2 j c)) (fun c => v19 (ix2 (0 : Fin 1) c)) (fun j c => v26 (ix2 j c)) (fun c => v29 (ix2 (0 : Fin 1) c)) (y 1 : Fin 40) := by
  obtain ⟨p, q, rfl⟩ : ∃ (p : Fin 4000) (q : Fin 40), y = ix2 p q := ⟨y 0, y 1, eq_ix2 y⟩
  exact head_apply v0 v2 v6 v9 v16 v19 v26 v29 p q

end Cert.KernelIdeal.Bodies

end
-- ==== Proof.KernelArray0.lean ====
/-
  The first pallas_call's result array, whole.

  The call runs 25 grid points. Point t reads rows 4000·t … 4000·t + 3999 of the feature array and of the
  aggregation array, and the four resident operands whole (their block index is 0 at every point), and writes back
  rows 4000·t … 4000·t + 3999 of the result. What it writes is the perceptron of each of its rows; a row of a
  block IS a row of the array, so each written block is a block of ONE function of the arrays as the call finds
  them (`layerArr`). The 25 blocks cover the 100000 rows (row r lies in block r / 4000), so the result array after
  the call is that function.
-/
import proofs.«161033_j72353019068534_2_alg».proof.Proof.Gen.KernelIdeal.Frame
import proofs.«161033_j72353019068534_2_alg».proof.Proof.KernelBodies

set_option maxRecDepth 16384

noncomputable section

namespace Cert.KernelIdeal.Array0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinRow Cert.KernelIdeal.Bodies

theorem hz : (![0, 0] : Fin 2 → Nat) = fun _ => 0 := funext fun a => by fin_cases a <;> rfl

/-- The graph layer as one function of whole arrays: row r of the result is the perceptron of row r of
    (features + aggregation), with the weights whole and each bias given as a one-row matrix. -/
def layerArr (X A : S100000x128.Idx → Elt Ideal .f32) (WA : S128x128.Idx → Elt Ideal .f32) (BA : S1x128.Idx → Elt Ideal .f32)
    (WB : S128x128.Idx → Elt Ideal .f32) (BB : S1x128.Idx → Elt Ideal .f32) : S100000x128.Idx → Elt Ideal .f32 :=
  ofRows fun r q => mlp (fun j => X (ix2 r j) + A (ix2 r j)) (fun j c => WA (ix2 j c)) (fun c => BA (ix2 (0 : Fin 1) c))
    (fun j c => WB (ix2 j c)) (fun c => BB (ix2 (0 : Fin 1) c)) q

/-- The printed index maps over the grid: the two streamed inputs and the output are at block (t, 0), the four
    resident operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point t writes back is block t of `layerArr` of the arrays as the call finds them. -/
theorem flushed_eq (c : Dev nD) (t : Fin cfg0.N) :
    (dat0 (F := Ideal) V c).flushed 6 t = ((cfg0.win 6).blk t).view.read (Elt Ideal)
      (layerArr (V c main_arg0) (V c main_v13) (V c main_arg2) (V c main_v14) (V c main_arg4) (V c main_v15)) := by
  show (cfg0.win 6).cut (grid0.coords t) ((dat0 V c).after 6 t) = _
  rw [after0_6]
  unfold out0_6
  rw [View.canon_unit_zero hz]
  simp only [View.ld_unit_zero (S := S4000x128) hz, View.ld_unit_zero (S := S128x128) hz, View.ld_unit_zero (S := S1x128) hz]
  obtain ⟨a00, a01, a10, a11, a20, a21, a30, a31, a40, a41, a50, a51, a60, a61⟩ := idx_facts t
  funext y
  show k0_pay1 (iblk0 V c 0 t) (iblk0 V c 1 t) (iblk0 V c 2 t) (iblk0 V c 3 t) (iblk0 V c 4 t) (iblk0 V c 5 t) y
    = layerArr (V c main_arg0) (V c main_v13) (V c main_arg2) (V c main_v14) (V c main_arg4) (V c main_v15)
        (((cfg0.win 6).blk t).view.emb y)
  refine (layer1_at (iblk0 V c 0 t) (iblk0 V c 1 t) (iblk0 V c 2 t) (iblk0 V c 3 t) (iblk0 V c 4 t) (iblk0 V c 5 t) y).trans ?_
  have hy0 : (y 0).val < 4000 := (y 0).isLt
  have hy1 : (y 1).val < 128 := (y 1).isLt
  have r0 : ∀ j : Fin 128, iblk0 V c 0 t (ix2 (y 0 : Fin 4000) j)
      = V c main_arg0 (ix2 ((((cfg0.win 6).blk t).view.emb y) 0 : Fin 100000) j) := fun j =>
    congrArg (V c main_arg0) (funext fun a => Fin.ext (by
      match a with
      | ⟨0, _⟩ => show win0_0.index t (0 : Fin 2) * 4000 + 1 * (y 0).val = win0_6.index t (0 : Fin 2) * 4000 + 1 * (y 0).val; omega
      | ⟨1, _⟩ => show win0_0.index t (1 : Fin 2) * 128 + 1 * j.val = j.val; omega))
  have r1 : ∀ j : Fin 128, iblk0 V c 1 t (ix2 (y 0 : Fin 4000) j)
      = V c main_v13 (ix2 ((((cfg0.win 6).blk t).view.emb y) 0 : Fin 100000) j) := fun j =>
    congrArg (V c main_v13) (funext fun a => Fin.ext (by
      match a with
      | ⟨0, _⟩ => show win0_1.index t (0 : Fin 2) * 4000 + 1 * (y 0).val = win0_6.index t (0 : Fin 2) * 4000 + 1 * (y 0).val; omega
      | ⟨1, _⟩ => show win0_1.index t (1 : Fin 2) * 128 + 1 * j.val = j.val; omega))
  have r2 : ∀ (j c' : Fin 128), iblk0 V c 2 t (ix2 j c') = V c main_arg2 (ix2 j c') := fun j c' =>
    congrArg (V c main_arg2) (funext fun a => Fin.ext (by
      match a with
      | ⟨0, _⟩ => show win0_2.index t (0 : Fin 2) * 128 + 1 * j.val = j.val; omega
      | ⟨1, _⟩ => show win0_2.index t (1 : Fin 2) * 128 + 1 * c'.val = c'.val; omega))
  have r3 : ∀ (c' : Fin 128), iblk0 V c 3 t (ix2 (0 : Fin 1) c') = V c main_v14 (ix2 (0 : Fin 1) c') := fun c' =>
    congrArg (V c main_v14) (funext fun a => Fin.ext (by
      match a with
      | ⟨0, _⟩ => show win0_3.index t (0 : Fin 2) * 1 + 1 * 0 = 0; omega
      | ⟨1, _⟩ => show win0_3.index t (1 : Fin 2) * 128 + 1 * c'.val = c'.val; omega))
  have r4 : ∀ (j c' : Fin 128), iblk0 V c 4 t (ix2 j c') = V c main_arg4 (ix2 j c') := fun j c' =>
    congrArg (V c main_arg4) (funext fun a => Fin.ext (by
      match a with
      | ⟨0, _⟩ => show win0_4.index t (0 : Fin 2) * 128 + 1 * j.val = j.val; omega
      | ⟨1, _⟩ => show win0_4.index t (1 : Fin 2) * 128 + 1 * c'.val = c'.val; omega))
  have r5 : ∀ (c' : Fin 128), iblk0 V c 5 t (ix2 (0 : Fin 1) c') = V c main_v15 (ix2 (0 : Fin 1) c') := fun c' =>
    congrArg (V c main_v15) (funext fun a => Fin.ext (by
      match a with
      | ⟨0, _⟩ => show win0_5.index t (0 : Fin 2) * 1 + 1 * 0 = 0; omega
      | ⟨1, _⟩ => show win0_5.index t (1 : Fin 2) * 128 + 1 * c'.val = c'.val; omega))
  have hq : (y 1 : Fin 128) = ((((cfg0.win 6).blk t).view.emb y) 1 : Fin 128) := Fin.ext (by
    show (y 1).val = win0_6.index t (1 : Fin 2) * 128 + 1 * (y 1).val; omega)
  exact mlp_congr (fun j => by rw [r0 j, r1 j]) r2 r3 r4 r5 hq

/-- An index of the result array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v16).slice (win0_6.rect t)).set ↔ _
  rw [View.set_slice_whole, Rect.mem_set_unit]
  exact Iff.rfl

/-- Every index of the result array lies in the block of the point its row falls in. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨a00, a01, a10, a11, a20, a21, a30, a31, a40, a41, a50, a51, a60, a61⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The result array after the call. -/
theorem final (c : Dev nD) : (dat0 (F := Ideal) V c).arrAt 6 cfg0.N
    = layerArr (V c main_arg0) (V c main_v13) (V c main_arg2) (V c main_v14) (V c main_arg4) (V c main_v15) :=
  (dat0 V c).arrAt_eq_of_cover 6 _ (fun t _ => flushed_eq V c t) cover

end Cert.KernelIdeal.Array0

end
-- ==== Proof.KernelArray1.lean ====
/-
  The second pallas_call's result array, whole.

  Again 25 grid points; point t reads rows 4000·t … 4000·t + 3999 of the first call's result and of the second
  aggregation array and six resident operands whole, and writes back rows 4000·t … 4000·t + 3999 of the
  100000 × 40 result: for each of its rows the second perceptron, the classifier and the log-softmax of the row of
  logits. Each written block is a block of ONE function of the arrays as the call finds them (`headArr`), and the
  25 blocks cover the result's rows.
-/
import proofs.«161033_j72353019068534_2_alg».proof.Proof.Gen.KernelIdeal.Frame
import proofs.«161033_j72353019068534_2_alg».proof.Proof.KernelBodies

set_option maxRecDepth 16384

noncomputable section

namespace Cert.KernelIdeal.Array1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinRow Cert.KernelIdeal.Bodies

theorem hz : (![0, 0] : Fin 2 → Nat) = fun _ => 0 := funext fun a => by fin_cases a <;> rfl

/-- The second graph layer, the classifier and the log-softmax as one function of whole arrays: row r of the result
    is `head` of row r of (first layer's result + its aggregation), each bias given as a one-row matrix. -/
def headArr (H A : S100000x128.Idx → Elt Ideal .f32) (WA : S128x128.Idx → Elt Ideal .f32) (BA : S1x128.Idx → Elt Ideal .f32)
    (WB : S128x128.Idx → Elt Ideal .f32) (BB : S1x128.Idx → Elt Ideal .f32) (WC : S128x40.Idx → Elt Ideal .f32)
    (BC : S1x40.Idx → Elt Ideal .f32) : S100000x40.Idx → Elt Ideal .f32 :=
  ofRows fun r q => head (fun j => H (ix2 r j) + A (ix2 r j)) (fun j c => WA (ix2 j c)) (fun c => BA (ix2 (0 : Fin 1) c))
    (fun j c => WB (ix2 j c)) (fun c => BB (ix2 (0 : Fin 1) c)) (fun j c => WC (ix2 j c)) (fun c => BC (ix2 (0 : Fin 1) c)) q

/-- The printed index maps over the grid: the two streamed inputs and the output are at block (t, 0), the six
    resident operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- What point t writes back is block t of `headArr` of the arrays as the call finds them. -/
theorem flushed_eq (c : Dev nD) (t : Fin cfg1.N) :
    (dat1 (F := Ideal) V c).flushed 8 t = ((cfg1.win 8).blk t).view.read (Elt Ideal)
      (headArr (V c main_v16) (V c main_v26) (V c main_arg6) (V c main_v27) (V c main_arg8) (V c main_v28) (V c main_arg10) (V c main_v29)) := by
  show (cfg1.win 8).cut (grid1.coords t) ((dat1 V c).after 8 t) = _
  rw [after1_8]
  unfold out1_8
  rw [View.canon_unit_zero hz]
  simp only [View.ld_unit_zero (S := S4000x128) hz, View.ld_unit_zero (S := S128x128) hz, View.ld_unit_zero (S := S1x128) hz,
    View.ld_unit_zero (S := S128x40) hz, View.ld_unit_zero (S := S1x40) hz]
  obtain ⟨a00, a01, a10, a11, a20, a21, a30, a31, a40, a41, a50, a51, a60, a61, a70, a71, a80, a81⟩ := idx_facts t
  funext y
  show k1_pay1 (k1_pay2 (iblk1 V c 0 t) (iblk1 V c 1 t) (iblk1 V c 2 t) (iblk1 V c 3 t) (iblk1 V c 4 t) (iblk1 V c 5 t) (iblk1 V c 6 t) (iblk1 V c 7 t)) y
    = headArr (V c main_v16) (V c main_v26) (V c main_arg6) (V c main_v27) (V c main_arg8) (V c main_v28) (V c main_arg10) (V c main_v29)
        (((cfg1.win 8).blk t).view.emb y)
  refine (head_at (iblk1 V c 0 t) (iblk1 V c 1 t) (iblk1 V c 2 t) (iblk1 V c 3 t) (iblk1 V c 4 t) (iblk1 V c 5 t) (iblk1 V c 6 t) (iblk1 V c 7 t) y).trans ?_
  have hy0 : (y 0).val < 4000 := (y 0).isLt
  have hy1 : (y 1).val < 40 := (y 1).isLt
  have r0 : ∀ j : Fin 128, iblk1 V c 0 t (ix2 (y 0 : Fin 4000) j)
      = V c main_v16 (ix2 ((((cfg1.win 8).blk t).view.emb y) 0 : Fin 100000) j) := fun j =>
    congrArg (V c main_v16) (funext fun a => Fin.ext (by
      match a with
      | ⟨0, _⟩ => show win1_0.index t (0 : Fin 2) * 4000 + 1 * (y 0).val = win1_8.index t (0 : Fin 2) * 4000 + 1 * (y 0).val; omega
      | ⟨1, _⟩ => show win1_0.index t (1 : Fin 2) * 128 + 1 * j.val = j.val; omega))
  have r1 : ∀ j : Fin 128, iblk1 V c 1 t (ix2 (y 0 : Fin 4000) j)
      = V c main_v26 (ix2 ((((cfg1.win 8).blk t).view.emb y) 0 : Fin 100000) j) := fun j =>
    congrArg (V c main_v26) (funext fun a => Fin.ext (by
      match a with
      | ⟨0, _⟩ => show win1_1.index t (0 : Fin 2) * 4000 + 1 * (y 0).val = win1_8.index t (0 : Fin 2) * 4000 + 1 * (y 0).val; omega
      | ⟨1, _⟩ => show win1_1.index t (1 : Fin 2) * 128 + 1 * j.val = j.val; omega))
  have r2 : ∀ (j : Fin 128) (c' : Fin 128), iblk1 V c 2 t (ix2 j c') = V c main_arg6 (ix2 j c') := fun j c' =>
    congrArg (V c main_arg6) (funext fun a => Fin.ext (by
      match a with
      | ⟨0, _⟩ => show win1_2.index t (0 : Fin 2) * 128 + 1 * j.val = j.val; omega
      | ⟨1, _⟩ => show win1_2.index t (1 : Fin 2) * 128 + 1 * c'.val = c'.val; omega))
  have r3 : ∀ (c' : Fin 128), iblk1 V c 3 t (ix2 (0 : Fin 1) c') = V c main_v27 (ix2 (0 : Fin 1) c') := fun c' =>
    congrArg (V c main_v27) (funext fun a => Fin.ext (by
      match a with
      | ⟨0, _⟩ => show win1_3.index t (0 : Fin 2) * 1 + 1 * 0 = 0; omega
      | ⟨1, _⟩ => show win1_3.index t (1 : Fin 2) * 128 + 1 * c'.val = c'.val; omega))
  have r4 : ∀ (j : Fin 128) (c' : Fin 128), iblk1 V c 4 t (ix2 j c') = V c main_arg8 (ix2 j c') := fun j c' =>
    congrArg (V c main_arg8) (funext fun a => Fin.ext (by
      match a with
      | ⟨0, _⟩ => show win1_4.index t (0 : Fin 2) * 128 + 1 * j.val = j.val; omega
      | ⟨1, _⟩ => show win1_4.index t (1 : Fin 2) * 128 + 1 * c'.val = c'.val; omega))
  have r5 : ∀ (c' : Fin 128), iblk1 V c 5 t (ix2 (0 : Fin 1) c') = V c main_v28 (ix2 (0 : Fin 1) c') := fun c' =>
    congrArg (V c main_v28) (funext fun a => Fin.ext (by
      match a with
      | ⟨0, _⟩ => show win1_5.index t (0 : Fin 2) * 1 + 1 * 0 = 0; omega
      | ⟨1, _⟩ => show win1_5.index t (1 : Fin 2) * 128 + 1 * c'.val = c'.val; omega))
  have r6 : ∀ (j : Fin 128) (c' : Fin 40), iblk1 V c 6 t (ix2 j c') = V c main_arg10 (ix2 j c') := fun j c' =>
    congrArg (V c main_arg10) (funext fun a => Fin.ext (by
      match a with
      | ⟨0, _⟩ => show win1_6.index t (0 : Fin 2) * 128 + 1 * j.val = j.val; omega
      | ⟨1, _⟩ => show win1_6.index t (1 : Fin 2) * 40 + 1 * c'.val = c'.val; omega))
  have r7 : ∀ (c' : Fin 40), iblk1 V c 7 t (ix2 (0 : Fin 1) c') = V c main_v29 (ix2 (0 : Fin 1) c') := fun c' =>
    congrArg (V c main_v29) (funext fun a => Fin.ext (by
      match a with
      | ⟨0, _⟩ => show win1_7.index t (0 : Fin 2) * 1 + 1 * 0 = 0; omega
      | ⟨1, _⟩ => show win1_7.index t (1 : Fin 2) * 40 + 1 * c'.val = c'.val; omega))
  have hq : (y 1 : Fin 40) = ((((cfg1.win 8).blk t).view.emb y) 1 : Fin 40) := Fin.ext (by
    show (y 1).val = win1_8.index t (1 : Fin 2) * 40 + 1 * (y 1).val; omega)
  exact head_congr (fun j => by rw [r0 j, r1 j]) r2 r3 r4 r5 r6 r7 hq

/-- An index of the result array is in point t's block iff each coordinate is in the block's range on its axis. -/
theorem mem_blk (t : Fin cfg1.N) (i : S100000x40.Idx) :
    i ∈ ((cfg1.win 8).blk t).view.set ↔ ∀ a : Fin 2, win1_8.index t a * S4000x40.size a ≤ (i a).val
      ∧ (i a).val < win1_8.index t a * S4000x40.size a + S4000x40.size a := by
  show i ∈ ((View.whole main_v30).slice (win1_8.rect t)).set ↔ _
  rw [View.set_slice_whole, Rect.mem_set_unit]
  exact Iff.rfl

/-- Every index of the result array lies in the block of the point its row falls in. -/
theorem cover (i : S100000x40.Idx) : ∃ t : Fin cfg1.N, (cfg1.win 8).flush t = true ∧ i ∈ ((cfg1.win 8).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨a00, a01, a10, a11, a20, a21, a30, a31, a40, a41, a50, a51, a60, a61, a70, a71, a80, a81⟩ := idx_facts t
  have ht : t.val = (i 0).val / 4000 := rfl
  refine ⟨t, flush1_8 t, ?_⟩
  rw [mem_blk]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 40 ≤ (i 1).val ∧ (i 1).val < win1_8.index t (1 : Fin 2) * 40 + 40; omega

/-- The result array after the call. -/
theorem final (c : Dev nD) : (dat1 (F := Ideal) V c).arrAt 8 cfg1.N
    = headArr (V c main_v16) (V c main_v26) (V c main_arg6) (V c main_v27) (V c main_arg8) (V c main_v28) (V c main_arg10) (V c main_v29) :=
  (dat1 V c).arrAt_eq_of_cover 8 _ (fun t _ => flushed_eq V c t) cover

end Cert.KernelIdeal.Array1

end
-- ==== Proof.KernelEntry.lean ====
/-
  What the two pallas_calls find in their operand arrays.

  Before the first call the host computes, from the edge list e (two rows of 1600000 node numbers: sources and
  destinations), the aggregation of the feature array x: a source number below zero is shifted by the node count,
  row src(k) of x is gathered for every edge k, and the gathered rows are scatter-added into a zero array at row
  dst(k) — the sum, for every node, of the features of the nodes with an edge into it (`neighbourSum`). It also
  reshapes two bias vectors to one-row matrices. Nothing else the first call reads is written before it.
  Before the second call the host does the same with the first call's result in place of x (the source and
  destination vectors are the ones already computed), and reshapes three more bias vectors.
  All of this holds at any reading of the floats.
-/
import proofs.«161033_j72353019068534_2_alg».proof.Proof.Gen.KernelIdeal.Frame
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]

/-- The edge list's first row: the source node of every edge. -/
def srcOf (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

/-- The edge list's second row: the destination node of every edge. -/
def dstOf (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- For every node, the sum of the rows of `h` at the sources of the edges into it. -/
def neighbourSumOf (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

def neighbourSum (h : (⟨S100000x128, .f32⟩ : BufTy).Contents (Elt F)) (e : (⟨S2x1600000, .i32⟩ : BufTy).Contents (Elt F)) :
    (⟨S100000x128, .f32⟩ : BufTy).Contents (Elt F) :=
  neighbourSumOf h (srcOf e) (dstOf e)

variable (m : (ℓ : Loc nD τ sig) → Buf (Elt F) ℓ) (ρ : Dev nD → PrngReg)

/-! ## Before the first call -/

theorem first_x (c : Dev nD) : V1 m ρ c main_arg0 = m ((c : Thread nD τ).loc main_arg0) := by
  show StableHlo.after hostOps0 (W0 m ρ c) (Proc.devRef .tc main_arg0) = _
  after_results <;> rfl

theorem first_agg (c : Dev nD) : V1 m ρ c main_v13
    = neighbourSum (m ((c : Thread nD τ).loc main_arg0)) (m ((c : Thread nD τ).loc main_arg1)) := by
  show StableHlo.after hostOps0 (W0 m ρ c) (Proc.devRef .tc main_v13) = _
  after_results <;> rfl

theorem first_src (c : Dev nD) : V1 m ρ c main_v1 = srcOf (m ((c : Thread nD τ).loc main_arg1)) := by
  show StableHlo.after hostOps0 (W0 m ρ c) (Proc.devRef .tc main_v1) = _
  after_results <;> rfl

theorem first_dst (c : Dev nD) : V1 m ρ c main_v3 = dstOf (m ((c : Thread nD τ).loc main_arg1)) := by
  show StableHlo.after hostOps0 (W0 m ρ c) (Proc.devRef .tc main_v3) = _
  after_results <;> rfl

theorem first_wa (c : Dev nD) : V1 m ρ c main_arg2 = m ((c : Thread nD τ).loc main_arg2) := by
  show StableHlo.after hostOps0 (W0 m ρ c) (Proc.devRef .tc main_arg2) = _
  after_results <;> rfl

theorem first_ba (c : Dev nD) : V1 m ρ c main_v14
    = shapeCast S1x128 (m ((c : Thread nD τ).loc main_arg3)) shapeCasts_S128_S1x128 := by
  show StableHlo.after hostOps0 (W0 m ρ c) (Proc.devRef .tc main_v14) = _
  after_results <;> rfl

theorem first_wb (c : Dev nD) : V1 m ρ c main_arg4 = m ((c : Thread nD τ).loc main_arg4) := by
  show StableHlo.after hostOps0 (W0 m ρ c) (Proc.devRef .tc main_arg4) = _
  after_results <;> rfl

theorem first_bb (c : Dev nD) : V1 m ρ c main_v15
    = shapeCast S1x128 (m ((c : Thread nD τ).loc main_arg5)) shapeCasts_S128_S1x128 := by
  show StableHlo.after hostOps0 (W0 m ρ c) (Proc.devRef .tc main_v15) = _
  after_results <;> rfl

/-! ## Between the calls: what the first call did not touch is as before it -/

/-- A buffer that is neither an operand array of the first call nor written by the host before it still holds its
    launch contents when the first call returns. -/
theorem kept_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem kept_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem kept_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem kept_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)
theorem kept_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)
theorem kept_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)
theorem kept_src (c : Dev nD) : W2 m ρ c (Proc.devRef .tc main_v1) = srcOf (m ((c : Thread nD τ).loc main_arg1)) :=
  (W2_of_ne m ρ c main_v1 (by decide)).trans (first_src m ρ c)
theorem kept_dst (c : Dev nD) : W2 m ρ c (Proc.devRef .tc main_v3) = dstOf (m ((c : Thread nD τ).loc main_arg1)) :=
  (W2_of_ne m ρ c main_v3 (by decide)).trans (first_dst m ρ c)

/-! ## Before the second call

What the sixteen host operations between the calls compute is a function of whatever the buffers hold: for ANY
contents `W` of the buffers they leave the first call's result array and the weight arrays as they were, the
aggregation of that array over the source and destination vectors already in memory, and three reshaped biases
(`ops1_…`). The second call's operands are these functions at the contents the first call leaves: its result array
where it wrote, and everything else as before it. -/

theorem neighbourSumOf_congr {h h' : (⟨S100000x128, .f32⟩ : BufTy).Contents (Elt F)} {s s' d d' : (⟨S1600000, .i32⟩ : BufTy).Contents (Elt F)}
    (eh : h = h') (es : s = s') (ed : d = d') : neighbourSumOf h s d = neighbourSumOf h' s' d' := by
  subst eh es ed; rfl

theorem ops1_h (W : Valuation τ sig (Elt F)) : StableHlo.after hostOps1 W (Proc.devRef .tc main_v16) = W (Proc.devRef .tc main_v16) := by
  after_results <;> rfl
theorem ops1_agg (W : Valuation τ sig (Elt F)) : StableHlo.after hostOps1 W (Proc.devRef .tc main_v26)
    = neighbourSumOf (W (Proc.devRef .tc main_v16)) (W (Proc.devRef .tc main_v1)) (W (Proc.devRef .tc main_v3)) := by
  after_results <;> rfl
theorem ops1_wa (W : Valuation τ sig (Elt F)) : StableHlo.after hostOps1 W (Proc.devRef .tc main_arg6) = W (Proc.devRef .tc main_arg6) := by
  after_results <;> rfl
theorem ops1_ba (W : Valuation τ sig (Elt F)) : StableHlo.after hostOps1 W (Proc.devRef .tc main_v27)
    = shapeCast S1x128 (W (Proc.devRef .tc main_arg7)) shapeCasts_S128_S1x128 := by
  after_results <;> rfl
theorem ops1_wb (W : Valuation τ sig (Elt F)) : StableHlo.after hostOps1 W (Proc.devRef .tc main_arg8) = W (Proc.devRef .tc main_arg8) := by
  after_results <;> rfl
theorem ops1_bb (W : Valuation τ sig (Elt F)) : StableHlo.after hostOps1 W (Proc.devRef .tc main_v28)
    = shapeCast S1x128 (W (Proc.devRef .tc main_arg9)) shapeCasts_S128_S1x128 := by
  after_results <;> rfl
theorem ops1_wc (W : Valuation τ sig (Elt F)) : StableHlo.after hostOps1 W (Proc.devRef .tc main_arg10) = W (Proc.devRef .tc main_arg10) := by
  after_results <;> rfl
theorem ops1_bc (W : Valuation τ sig (Elt F)) : StableHlo.after hostOps1 W (Proc.devRef .tc main_v29)
    = shapeCast S1x40 (W (Proc.devRef .tc main_arg11)) shapeCasts_S40_S1x40 := by
  after_results <;> rfl

/-- Its first operand is the first call's result array. -/
theorem second_h (c : Dev nD) : V3 m ρ c main_v16 = (dat0 (V1 m ρ) c).arrAt 6 cfg0.N :=
  (ops1_h (W2 m ρ c)).trans (W2_arr m ρ c 6)

/-- Its second operand is the aggregation of that result over the same edges. -/
theorem second_agg (c : Dev nD) : V3 m ρ c main_v26
    = neighbourSumOf ((dat0 (V1 m ρ) c).arrAt 6 cfg0.N) (srcOf (m ((c : Thread nD τ).loc main_arg1))) (dstOf (m ((c : Thread nD τ).loc main_arg1))) :=
  (ops1_agg (W2 m ρ c)).trans (neighbourSumOf_congr (W2_arr m ρ c 6) (kept_src m ρ c) (kept_dst m ρ c))

theorem second_wa (c : Dev nD) : V3 m ρ c main_arg6 = m ((c : Thread nD τ).loc main_arg6) :=
  (ops1_wa (W2 m ρ c)).trans (kept_arg6 m ρ c)

theorem second_ba (c : Dev nD) : V3 m ρ c main_v27
    = shapeCast S1x128 (m ((c : Thread nD τ).loc main_arg7)) shapeCasts_S128_S1x128 :=
  (ops1_ba (W2 m ρ c)).trans (congrArg (fun x => shapeCast S1x128 x shapeCasts_S128_S1x128) (kept_arg7 m ρ c))

theorem second_wb (c : Dev nD) : V3 m ρ c main_arg8 = m ((c : Thread nD τ).loc main_arg8) :=
  (ops1_wb (W2 m ρ c)).trans (kept_arg8 m ρ c)

theorem second_bb (c : Dev nD) : V3 m ρ c main_v28
    = shapeCast S1x128 (m ((c : Thread nD τ).loc main_arg9)) shapeCasts_S128_S1x128 :=
  (ops1_bb (W2 m ρ c)).trans (congrArg (fun x => shapeCast S1x128 x shapeCasts_S128_S1x128) (kept_arg9 m ρ c))

theorem second_wc (c : Dev nD) : V3 m ρ c main_arg10 = m ((c : Thread nD τ).loc main_arg10) :=
  (ops1_wc (W2 m ρ c)).trans (kept_arg10 m ρ c)

theorem second_bc (c : Dev nD) : V3 m ρ c main_v29
    = shapeCast S1x40 (m ((c : Thread nD τ).loc main_arg11)) shapeCasts_S40_S1x40 :=
  (ops1_bc (W2 m ρ c)).trans (congrArg (fun x => shapeCast S1x40 x shapeCasts_S40_S1x40) (kept_arg11 m ρ c))

end Cert.KernelIdeal.Entry

end
-- ==== Proof.KernelValue.lean ====
/-
  The idealized kernel's result as one function of its twelve arguments.

  Chaining the pieces: the second call's result array is `headArr` of the arrays it finds; those are the first
  call's result array, its aggregation over the edge list, three weight matrices from the arguments and three
  reshaped biases; the first call's result array is `layerArr` of the arrays IT finds: the features, their
  aggregation, two weight matrices and two reshaped biases. Composed, the kernel's result on every core is the
  function `net` of the arguments below, and its run ends with the result buffer holding exactly that.
-/
import proofs.«161033_j72353019068534_2_alg».proof.Proof.KernelWholeRun
import proofs.«161033_j72353019068534_2_alg».proof.Proof.KernelArray0
import proofs.«161033_j72353019068534_2_alg».proof.Proof.KernelArray1
import proofs.«161033_j72353019068534_2_alg».proof.Proof.KernelEntry

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.GinRow
open Cert.KernelIdeal.Array0 Cert.KernelIdeal.Array1 Cert.KernelIdeal.Entry

/-- The first graph layer of the arguments: features x, edge list e, weights and biases of its perceptron. -/
def layer1 (x : (⟨S100000x128, .f32⟩ : BufTy).Contents (Elt Ideal)) (e : (⟨S2x1600000, .i32⟩ : BufTy).Contents (Elt Ideal))
    (wa : (⟨S128x128, .f32⟩ : BufTy).Contents (Elt Ideal)) (ba : (⟨S128, .f32⟩ : BufTy).Contents (Elt Ideal))
    (wb : (⟨S128x128, .f32⟩ : BufTy).Contents (Elt Ideal)) (bb : (⟨S128, .f32⟩ : BufTy).Contents (Elt Ideal)) :
    (⟨S100000x128, .f32⟩ : BufTy).Contents (Elt Ideal) :=
  layerArr x (neighbourSum x e) wa (shapeCast S1x128 ba shapeCasts_S128_S1x128) wb (shapeCast S1x128 bb shapeCasts_S128_S1x128)

/-- The whole network: the second graph layer of the first one's result over the same edges, the classifier and the
    log-softmax. -/
def net (x : (⟨S100000x128, .f32⟩ : BufTy).Contents (Elt Ideal)) (e : (⟨S2x1600000, .i32⟩ : BufTy).Contents (Elt Ideal))
    (w1a : (⟨S128x128, .f32⟩ : BufTy).Contents (Elt Ideal)) (b1a : (⟨S128, .f32⟩ : BufTy).Contents (Elt Ideal))
    (w1b : (⟨S128x128, .f32⟩ : BufTy).Contents (Elt Ideal)) (b1b : (⟨S128, .f32⟩ : BufTy).Contents (Elt Ideal))
    (w2a : (⟨S128x128, .f32⟩ : BufTy).Contents (Elt Ideal)) (b2a : (⟨S128, .f32⟩ : BufTy).Contents (Elt Ideal))
    (w2b : (⟨S128x128, .f32⟩ : BufTy).Contents (Elt Ideal)) (b2b : (⟨S128, .f32⟩ : BufTy).Contents (Elt Ideal))
    (wfc : (⟨S128x40, .f32⟩ : BufTy).Contents (Elt Ideal)) (bfc : (⟨S40, .f32⟩ : BufTy).Contents (Elt Ideal)) :
    (⟨S100000x40, .f32⟩ : BufTy).Contents (Elt Ideal) :=
  headArr (layer1 x e w1a b1a w1b b1b) (neighbourSumOf (layer1 x e w1a b1a w1b b1b) (srcOf e) (dstOf e))
    w2a (shapeCast S1x128 b2a shapeCasts_S128_S1x128) w2b (shapeCast S1x128 b2b shapeCasts_S128_S1x128)
    wfc (shapeCast S1x40 bfc shapeCasts_S40_S1x40)

theorem layerArr_congr {X X' A A' : S100000x128.Idx → Elt Ideal .f32} {WA WA' WB WB' : S128x128.Idx → Elt Ideal .f32}
    {BA BA' BB BB' : S1x128.Idx → Elt Ideal .f32}
    (h0 : X = X') (h1 : A = A') (h2 : WA = WA') (h3 : BA = BA') (h4 : WB = WB') (h5 : BB = BB') :
    layerArr X A WA BA WB BB = layerArr X' A' WA' BA' WB' BB' := by
  subst h0 h1 h2 h3 h4 h5; rfl

theorem headArr_congr {H H' A A' : S100000x128.Idx → Elt Ideal .f32} {WA WA' WB WB' : S128x128.Idx → Elt Ideal .f32}
    {BA BA' BB BB' : S1x128.Idx → Elt Ideal .f32} {WC WC' : S128x40.Idx → Elt Ideal .f32} {BC BC' : S1x40.Idx → Elt Ideal .f32}
    (h0 : H = H') (h1 : A = A') (h2 : WA = WA') (h3 : BA = BA') (h4 : WB = WB') (h5 : BB = BB') (h6 : WC = WC') (h7 : BC = BC') :
    headArr H A WA BA WB BB WC BC = headArr H' A' WA' BA' WB' BB' WC' BC' := by
  subst h0 h1 h2 h3 h4 h5 h6 h7; rfl

variable (m : (ℓ : Loc nD τ sig) → Buf (Elt Ideal) ℓ) (ρ : Dev nD → PrngReg)

/-- The first call's result array is the first graph layer of the arguments. -/
theorem first_result (c : Dev nD) : (dat0 (F := Ideal) (V1 m ρ) c).arrAt 6 cfg0.N
    = layer1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Array0.final (V1 m ρ) c).trans
    (layerArr_congr (first_x m ρ c) (first_agg m ρ c) (first_wa m ρ c) (first_ba m ρ c) (first_wb m ρ c) (first_bb m ρ c))

/-- The result buffer after the whole run is the network of the arguments. -/
theorem result_eq (c : Dev nD) : W4 m ρ c (Proc.devRef .tc main_v30)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) :=
  (W4_arr m ρ c 8).trans ((Array1.final (V3 m ρ) c).trans
    (headArr_congr ((second_h m ρ c).trans (first_result m ρ c))
      ((second_agg m ρ c).trans (neighbourSumOf_congr (first_result m ρ c) rfl rfl))
      (second_wa m ρ c) (second_ba m ρ c) (second_wb m ρ c) (second_bb m ρ c) (second_wc m ρ c) (second_bc m ρ c)))

/-- The idealized kernel's run: it terminates, nothing faulting, the result buffer at the network of the arguments
    and the arguments unchanged. -/
theorem run : θ_run defs (onTc (τ := τ) (main (F := Ideal))) ⟨m, fun _ => 0, ρ⟩ (fun r => ∀ c : Dev nD,
      r.2.mem ((c.tc : Thread nD τ).loc main_v30)
        = net (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result_eq m ρ c), (h c).2⟩)
    (Cert.KernelIdeal.WholeRun.run_result (F := Ideal) m ρ)

end Cert.KernelIdeal.Result

end
-- ==== Proof.RefRows.lean ====
/-
  The reference's stages read one row at a time.

  The reference computes on whole 100000-row arrays, but every stage after an aggregation acts on each row by
  itself: a `dot_general` with a weight matrix (entry (r, c) is the sum over the contracted coordinate of row r
  against column c), a bias vector broadcast to every row, the rectifier entry by entry, and in the last stage the
  maximum and the sum along a row. So entry (r, c) of the first layer's result is the perceptron of row r of
  (features + aggregation), entry (r, c) of the second layer's result the perceptron of row r of (first layer +
  its aggregation), and entry (r, q) of the final result the log-softmax of row r of the logits — the row functions
  of `RowSpec`. The aggregations themselves stay closed: they are the same host operations in both programs.
-/
import proofs.«161033_j72353019068534_2_alg».proof.Proof.RefReadPatched
import proofs.«161033_j72353019068534_2_alg».proof.Proof.RowSpec
import proofs.«161033_j72353019068534_2_alg».proof.Proof.LibLaneSum

open scoped BigOperators

noncomputable section

namespace Cert.ReferenceIdeal.Rows

open Cert.ReferenceIdeal Cert.ReferenceIdeal.Gen Cert.ReferenceIdeal.ReadP Idealize.ShloMosaic Idealize.ShloMosaic.TcCoe Idealize.ShloMosaic.ValueIdx Cert.GinRow

/-- The reference's first graph layer at (r, c): the perceptron of row r of (features + aggregation). -/
theorem layer1_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) (c : Fin 128) :
    val_main_v24 (F := Ideal) x0 x1 x2 x3 x4 x5 (ix2 r c)
      = mlp (fun j => x0 (ix2 r j) + val_main_v13 (F := Ideal) x0 x1 (ix2 r j)) (fun j k => x2 (ix2 j k)) (fun k => x3 (ix1 k))
          (fun j k => x4 (ix2 j k)) (fun k => x5 (ix1 k)) c := by
  have inner : ∀ k : Fin 128, val_main_v19 (F := Ideal) x0 x1 x2 x3 (ix2 r k)
      = relu (affine (fun j => x0 (ix2 r j) + val_main_v13 (F := Ideal) x0 x1 (ix2 r j)) (fun j k => x2 (ix2 j k)) (fun k => x3 (ix1 k))) k := by
    intro k
    rw [val_main_v19_apply, val_main_v18_apply, val_main_v15_apply, val_main_v17_apply, val_main_v16_apply, val_main_call0_v0_apply, val_main_call0_cst_apply]
    have el : ∀ j : Fin 128, lidx_main_v15 (ix2 r k) j = ix2 r j := fun j => funext fun a => Fin.ext (by match a with | ⟨0, _⟩ => rfl | ⟨1, _⟩ => rfl)
    have er : ∀ j : Fin 128, ridx_main_v15 (ix2 r k) j = ix2 j k := fun j => funext fun a => Fin.ext (by match a with | ⟨0, _⟩ => rfl | ⟨1, _⟩ => rfl)
    have eb : idx_main_v16 (idx_main_v17 (ix2 r k)) = ix1 k := funext fun a => Fin.ext (by match a with | ⟨0, _⟩ => rfl)
    simp only [el, er, eb]
    rfl
  rw [val_main_v24_apply, val_main_v23_apply, val_main_v20_apply, val_main_v22_apply, val_main_v21_apply, val_main_call1_v0_apply, val_main_call1_cst_apply]
  have el : ∀ k : Fin 128, lidx_main_v20 (ix2 r c) k = ix2 r k := fun k => funext fun a => Fin.ext (by match a with | ⟨0, _⟩ => rfl | ⟨1, _⟩ => rfl)
  have er : ∀ k : Fin 128, ridx_main_v20 (ix2 r c) k = ix2 k c := fun k => funext fun a => Fin.ext (by match a with | ⟨0, _⟩ => rfl | ⟨1, _⟩ => rfl)
  have eb : idx_main_v21 (idx_main_v22 (ix2 r c)) = ix1 c := funext fun a => Fin.ext (by match a with | ⟨0, _⟩ => rfl)
  simp only [el, er, eb, inner]
  rfl

/-- The reference's second graph layer at (r, c): the perceptron of row r of (first layer + its aggregation). -/
theorem layer2_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (r : Fin 100000) (c : Fin 128) :
    val_main_v45 (F := Ideal) x0 x1 x2 x3 x4 x5 x6 x7 x8 x9 (ix2 r c)
      = mlp (fun j => val_main_v24 (F := Ideal) x0 x1 x2 x3 x4 x5 (ix2 r j) + val_main_v34 (F := Ideal) x0 x1 x2 x3 x4 x5 (ix2 r j)) (fun j k => x6 (ix2 j k)) (fun k => x7 (ix1 k))
          (fun j k => x8 (ix2 j k)) (fun k => x9 (ix1 k)) c := by
  have inner : ∀ k : Fin 128, val_main_v40 (F := Ideal) x0 x1 x2 x3 x4 x5 x6 x7 (ix2 r k)
      = relu (affine (fun j => val_main_v24 (F := Ideal) x0 x1 x2 x3 x4 x5 (ix2 r j) + val_main_v34 (F := Ideal) x0 x1 x2 x3 x4 x5 (ix2 r j)) (fun j k => x6 (ix2 j k)) (fun k => x7 (ix1 k))) k := by
    intro k
    rw [val_main_v40_apply, val_main_v39_apply, val_main_v36_apply, val_main_v38_apply, val_main_v37_apply, val_main_call2_v0_apply, val_main_call2_cst_apply]
    have el : ∀ j : Fin 128, lidx_main_v36 (ix2 r k) j = ix2 r j := fun j => funext fun a => Fin.ext (by match a with | ⟨0, _⟩ => rfl | ⟨1, _⟩ => rfl)
    have er : ∀ j : Fin 128, ridx_main_v36 (ix2 r k) j = ix2 j k := fun j => funext fun a => Fin.ext (by match a with | ⟨0, _⟩ => rfl | ⟨1, _⟩ => rfl)
    have eb : idx_main_v37 (idx_main_v38 (ix2 r k)) = ix1 k := funext fun a => Fin.ext (by match a with | ⟨0, _⟩ => rfl)
    simp only [el, er, eb]
    rfl
  rw [val_main_v45_apply, val_main_v44_apply, val_main_v41_apply, val_main_v43_apply, val_main_v42_apply, val_main_call3_v0_apply, val_main_call3_cst_apply]
  have el : ∀ k : Fin 128, lidx_main_v41 (ix2 r c) k = ix2 r k := fun k => funext fun a => Fin.ext (by match a with | ⟨0, _⟩ => rfl | ⟨1, _⟩ => rfl)
  have er : ∀ k : Fin 128, ridx_main_v41 (ix2 r c) k = ix2 k c := fun k => funext fun a => Fin.ext (by match a with | ⟨0, _⟩ => rfl | ⟨1, _⟩ => rfl)
  have eb : idx_main_v42 (idx_main_v43 (ix2 r c)) = ix1 c := funext fun a => Fin.ext (by match a with | ⟨0, _⟩ => rfl)
  simp only [el, er, eb, inner]
  rfl

/-- The second aggregation is the first one's operations applied to the first layer's result: the source and
    destination vectors are computed from the edge list by the same operations both times. -/
theorem agg2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v34 (F := Ideal) x0 x1 x2 x3 x4 x5 = val_main_v13 (F := Ideal) (val_main_v24 (F := Ideal) x0 x1 x2 x3 x4 x5) x1 := rfl

/-- The reference's final result at (r, q): the log-softmax of row r of the logits, which are the classifier's dense
    layer on row r of the second layer's result. -/
theorem head_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x40, .f32⟩ : BufTy).Contents (Elt Ideal)) (x11 : (⟨S40, .f32⟩ : BufTy).Contents (Elt Ideal)) (r : Fin 100000) (q : Fin 40) :
    val_main_v50 (F := Ideal) x0 x1 x2 x3 x4 x5 x6 x7 x8 x9 x10 x11 (ix2 r q)
      = logSoftmax (affine (fun j => val_main_v45 (F := Ideal) x0 x1 x2 x3 x4 x5 x6 x7 x8 x9 (ix2 r j)) (fun j k => x10 (ix2 j k)) (fun k => x11 (ix1 k))) q := by
  -- the logits of row r
  have hl : ∀ k : Fin 40, val_main_v49 (F := Ideal) x0 x1 x2 x3 x4 x5 x6 x7 x8 x9 x10 x11 (ix2 r k)
      = affine (fun j => val_main_v45 (F := Ideal) x0 x1 x2 x3 x4 x5 x6 x7 x8 x9 (ix2 r j)) (fun j k => x10 (ix2 j k)) (fun k => x11 (ix1 k)) k := by
    intro k
    rw [val_main_v49_apply, val_main_v46_apply, val_main_v48_apply, val_main_v47_apply]
    have el : ∀ j : Fin 128, lidx_main_v46 (ix2 r k) j = ix2 r j := fun j => funext fun a => Fin.ext (by match a with | ⟨0, _⟩ => rfl | ⟨1, _⟩ => rfl)
    have er : ∀ j : Fin 128, ridx_main_v46 (ix2 r k) j = ix2 j k := fun j => funext fun a => Fin.ext (by match a with | ⟨0, _⟩ => rfl | ⟨1, _⟩ => rfl)
    have eb : idx_main_v47 (idx_main_v48 (ix2 r k)) = ix1 k := funext fun a => Fin.ext (by match a with | ⟨0, _⟩ => rfl)
    simp only [el, er, eb]
    rfl
  -- the maximum of row r
  have hred : S100000x40.Reduces [1] S100000 := by decide
  have hm : val_main_call4_v2 (F := Ideal) x0 x1 x2 x3 x4 x5 x6 x7 x8 x9 x10 x11 (ix1 r)
      = rowMax (fun k => val_main_v49 (F := Ideal) x0 x1 x2 x3 x4 x5 x6 x7 x8 x9 x10 x11 (ix2 r k)) := by
    rw [val_main_call4_v2_apply, val_main_call4_v1_apply, val_main_call4_cst_0_apply]
    unfold val_main_call4_v0
    rw [Host.reduce_eq_fold_single FloatOps.maximumf _ _ reducesTo_S100000x40_S100000_d1 hred h_S_ (ix1 r)]
    have hf : (val_main_v49 (F := Ideal) x0 x1 x2 x3 x4 x5 x6 x7 x8 x9 x10 x11 ∘ hred.lift (ix1 r))
        = fun k : Fin 40 => val_main_v49 (F := Ideal) x0 x1 x2 x3 x4 x5 x6 x7 x8 x9 x10 x11 (ix2 r k) :=
      funext fun k => congrArg (val_main_v49 (F := Ideal) x0 x1 x2 x3 x4 x5 x6 x7 x8 x9 x10 x11) (reduces_rows_lift hred r k)
    rw [hf]
    exact max_rowMax _
  -- the shifted logits of row r
  have hs : ∀ k : Fin 40, val_main_call4_v5 (F := Ideal) x0 x1 x2 x3 x4 x5 x6 x7 x8 x9 x10 x11 (ix2 r k)
      = val_main_v49 (F := Ideal) x0 x1 x2 x3 x4 x5 x6 x7 x8 x9 x10 x11 (ix2 r k) - rowMax (fun k => val_main_v49 (F := Ideal) x0 x1 x2 x3 x4 x5 x6 x7 x8 x9 x10 x11 (ix2 r k)) := by
    intro k
    rw [val_main_call4_v5_apply, val_main_call4_v4_apply, val_main_call4_v3_apply]
    have e : idx_main_call4_v3 (idx_main_call4_v4 (ix2 r k)) = ix1 r := funext fun a => Fin.ext (by match a with | ⟨0, _⟩ => rfl)
    rw [e, hm]
    rfl
  -- the sum of their exponentials
  have hsum : val_main_call4_v7 (F := Ideal) x0 x1 x2 x3 x4 x5 x6 x7 x8 x9 x10 x11 (ix1 r)
      = ∑ k : Fin 40, Ideal.exp (val_main_v49 (F := Ideal) x0 x1 x2 x3 x4 x5 x6 x7 x8 x9 x10 x11 (ix2 r k) - rowMax (fun k => val_main_v49 (F := Ideal) x0 x1 x2 x3 x4 x5 x6 x7 x8 x9 x10 x11 (ix2 r k))) := by
    rw [val_main_call4_v7_apply, val_main_call4_cst_1_apply]
    have e : ∀ k : Fin 40, idx_main_call4_v7 (ix1 r) k = ix2 r k := fun k => funext fun a => Fin.ext (by match a with | ⟨0, _⟩ => rfl | ⟨1, _⟩ => rfl)
    simp only [e, val_main_call4_v6_apply, hs, Ideal.hostUnary_exp_def, Ideal.ofBits_def, Ideal.ofBits_zero_f32, zero_add]
  rw [val_main_v50_apply, val_main_call4_v10_apply, val_main_call4_v9_apply, val_main_call4_v8_apply]
  have e : idx_main_call4_v8 (idx_main_call4_v10 (ix2 r q)) = ix1 r := funext fun a => Fin.ext (by match a with | ⟨0, _⟩ => rfl)
  rw [e, hsum, hs q]
  unfold logSoftmax
  simp only [Ideal.subf_def, Ideal.hostUnary_log_def]
  have hl' : (fun k : Fin 40 => val_main_v49 (F := Ideal) x0 x1 x2 x3 x4 x5 x6 x7 x8 x9 x10 x11 (ix2 r k))
      = affine (fun j => val_main_v45 (F := Ideal) x0 x1 x2 x3 x4 x5 x6 x7 x8 x9 (ix2 r j)) (fun j k => x10 (ix2 j k)) (fun k => x11 (ix1 k)) := funext hl
  rw [← hl', hl q]
  rw [← hl']

end Cert.ReferenceIdeal.Rows

end
-- ==== Proof.Bridge.lean ====
/-
  The two programs compute one function.

  The kernel's result is `net` of the twelve arguments: row r of it is the second perceptron, the classifier and the
  log-softmax applied to row r of (H + aggregation of H), where row r of H is the first perceptron of row r of
  (x + aggregation of x). The reference's last stage, read a row at a time, says the same with its own names: its
  first layer's result is H (same rows, same weights; a bias vector reshaped to one row and read at (0, c) is the
  vector at c), its two aggregations are the kernel's — the same host operations on the same operands —, and its last
  stage at (r, q) is the log-softmax of the classifier's layer on row r of its second layer's result. No law of
  arithmetic is used: the two sides are the same sums, maxima, exponentials and logarithms of the same numbers.
-/
import proofs.«161033_j72353019068534_2_alg».proof.Proof.KernelValue
import proofs.«161033_j72353019068534_2_alg».proof.Proof.RefRows

open scoped BigOperators

noncomputable section

namespace Cert.Bridge

open Idealize.ShloMosaic Idealize.ShloMosaic.TcCoe Idealize.ShloMosaic.ValueIdx Cert.GinRow
open Cert.KernelIdeal.Result Cert.KernelIdeal.Entry Cert.KernelIdeal.Array0 Cert.KernelIdeal.Array1
open Cert.ReferenceIdeal.ReadP Cert.ReferenceIdeal.Rows

/-- The reference's aggregation of an array over the edge list is the kernel's: the same host operations. -/
theorem agg_eq (h : (⟨Cert.ReferenceIdeal.S100000x128, .f32⟩ : BufTy).Contents (Elt Ideal)) (e : (⟨Cert.ReferenceIdeal.S2x1600000, .i32⟩ : BufTy).Contents (Elt Ideal)) :
    val_main_v13 (F := Ideal) h e = neighbourSum (F := Ideal) h e := rfl

/-- The first layer: the kernel's first call's result is the reference's first layer's result. -/
theorem layer1_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) :
    layer1 x0 x1 x2 x3 x4 x5 = val_main_v24 (F := Ideal) x0 x1 x2 x3 x4 x5 := by
  funext i
  obtain ⟨r, c, rfl⟩ : ∃ (r : Fin 100000) (c : Fin 128), i = ix2 r c := ⟨i 0, i 1, eq_ix2 i⟩
  rw [layer1_row]
  show mlp (fun j => x0 (ix2 r j) + neighbourSum (F := Ideal) x0 x1 (ix2 r j)) (fun j c => x2 (ix2 j c))
      (fun c => shapeCast Cert.KernelIdeal.S1x128 x3 Cert.KernelIdeal.Facts₀.shapeCasts_S128_S1x128 (ix2 (0 : Fin 1) c))
      (fun j c => x4 (ix2 j c))
      (fun c => shapeCast Cert.KernelIdeal.S1x128 x5 Cert.KernelIdeal.Facts₀.shapeCasts_S128_S1x128 (ix2 (0 : Fin 1) c)) c = _
  exact mlp_congr (fun j => by rw [agg_eq]) (fun _ _ => rfl) (fun c => shapeCast_a_1a_apply x3 _ 0 c) (fun _ _ => rfl)
    (fun c => shapeCast_a_1a_apply x5 _ 0 c) rfl

/-- The whole network: the kernel's result is the reference's last stage. -/
theorem net_eq (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x40, .f32⟩ : BufTy).Contents (Elt Ideal)) (x11 : (⟨Cert.ReferenceIdeal.S40, .f32⟩ : BufTy).Contents (Elt Ideal)) :
    net x0 x1 x2 x3 x4 x5 x6 x7 x8 x9 x10 x11 = val_main_v50 (F := Ideal) x0 x1 x2 x3 x4 x5 x6 x7 x8 x9 x10 x11 := by
  funext i
  obtain ⟨r, q, rfl⟩ : ∃ (r : Fin 100000) (q : Fin 40), i = ix2 r q := ⟨i 0, i 1, eq_ix2 i⟩
  rw [head_row]
  have hH : layer1 x0 x1 x2 x3 x4 x5 = val_main_v24 (F := Ideal) x0 x1 x2 x3 x4 x5 := layer1_eq x0 x1 x2 x3 x4 x5
  -- the second aggregation, in the kernel's words
  have hA : neighbourSumOf (F := Ideal) (layer1 x0 x1 x2 x3 x4 x5) (srcOf x1) (dstOf x1) = val_main_v34 (F := Ideal) x0 x1 x2 x3 x4 x5 := by
    rw [agg2_eq, agg_eq, ← hH]; rfl
  show head (fun j => layer1 x0 x1 x2 x3 x4 x5 (ix2 r j) + neighbourSumOf (F := Ideal) (layer1 x0 x1 x2 x3 x4 x5) (srcOf x1) (dstOf x1) (ix2 r j))
      (fun j c => x6 (ix2 j c))
      (fun c => shapeCast Cert.KernelIdeal.S1x128 x7 Cert.KernelIdeal.Facts₀.shapeCasts_S128_S1x128 (ix2 (0 : Fin 1) c))
      (fun j c => x8 (ix2 j c))
      (fun c => shapeCast Cert.KernelIdeal.S1x128 x9 Cert.KernelIdeal.Facts₀.shapeCasts_S128_S1x128 (ix2 (0 : Fin 1) c))
      (fun j c => x10 (ix2 j c))
      (fun c => shapeCast Cert.KernelIdeal.S1x40 x11 Cert.KernelIdeal.Facts₀.shapeCasts_S40_S1x40 (ix2 (0 : Fin 1) c)) q = _
  unfold head
  refine congrArg (fun l => logSoftmax l q) (funext fun k => ?_)
  have hrow : (mlp (fun j => layer1 x0 x1 x2 x3 x4 x5 (ix2 r j) + neighbourSumOf (F := Ideal) (layer1 x0 x1 x2 x3 x4 x5) (srcOf x1) (dstOf x1) (ix2 r j))
      (fun j c => x6 (ix2 j c))
      (fun c => shapeCast Cert.KernelIdeal.S1x128 x7 Cert.KernelIdeal.Facts₀.shapeCasts_S128_S1x128 (ix2 (0 : Fin 1) c))
      (fun j c => x8 (ix2 j c))
      (fun c => shapeCast Cert.KernelIdeal.S1x128 x9 Cert.KernelIdeal.Facts₀.shapeCasts_S128_S1x128 (ix2 (0 : Fin 1) c)))
      = fun j => val_main_v45 (F := Ideal) x0 x1 x2 x3 x4 x5 x6 x7 x8 x9 (ix2 r j) := by
    funext j
    rw [layer2_row]
    exact mlp_congr (fun i => by rw [hA, hH]) (fun _ _ => rfl) (fun c => shapeCast_a_1a_apply x7 _ 0 c) (fun _ _ => rfl)
      (fun c => shapeCast_a_1a_apply x9 _ 0 c) rfl
  rw [hrow]
  unfold affine
  exact congrArg (fun b => (∑ j : Fin 128, val_main_v45 (F := Ideal) x0 x1 x2 x3 x4 x5 x6 x7 x8 x9 (ix2 r j) * x10 (ix2 j k)) + b) (shapeCast_a_1a_apply x11 _ 0 k)

end Cert.Bridge

end
-- ==== Proof.lean ====
/-
  A two-layer graph-isomorphism network with a 40-class log-softmax head, on 100000 nodes with 128 features and
  1600000 edges: a kernel program against its reference, at the exact extended reals.

  Both programs aggregate the features over the edge list on the host (gather the source rows, scatter-add them at
  the destination rows), and both then apply, to every node's row of (features + aggregation), a perceptron of two
  dense layers with a rectifier after each; they repeat this on the result, apply a dense classifier and take the
  log-softmax of each row of logits. The kernel does the dense work in two pallas_calls that stream blocks of 4000
  rows with the weights resident, rounding the matrix products' operands to bf16 — the identity at the exact
  extended reals — and accumulating into zero; the reference does it with whole-array host operations.

  The proof has no arithmetic in it, because the two programs compute the same sums, maxima, exponentials and
  logarithms of the same numbers; all of it is bookkeeping of WHICH numbers:
    * a block's row is the array's row, the 25 blocks of each call cover the array, so each call's result array is
      one function of the arrays it finds (Proof/KernelArray0, KernelArray1, over the bodies read at an entry in
      Proof/KernelBodies and Proof/BlockRows);
    * the arrays each call finds are the arguments, the aggregation, and reshaped biases (Proof/KernelEntry), so the
      kernel's result is one function `net` of the twelve arguments, and its run ends there (Proof/KernelValue over
      Proof/KernelWholeRun);
    * the reference's run ends at its last stage function of the arguments (Proof/RefRun), which, read one row at a
      time (Proof/RefRows), is `net` (Proof/Bridge).
  The precondition (finite float inputs) is never opened: nothing here needs it. The ideal pass rewrote no operation,
  so the kernel's idealization is its own text and `preserves` is trivial. The three frames: the two kernel programs'
  are the generated ones; the reference's is its run with the result dropped.
-/
import proofs.«161033_j72353019068534_2_alg».proof.Defs
import proofs.«161033_j72353019068534_2_alg».proof.Proof.Gen.Kernel
import proofs.«161033_j72353019068534_2_alg».proof.Proof.Gen.Kernel.Frame
import proofs.«161033_j72353019068534_2_alg».proof.Proof.Gen.KernelIdeal
import proofs.«161033_j72353019068534_2_alg».proof.Proof.Gen.KernelIdeal.Frame
import proofs.«161033_j72353019068534_2_alg».proof.Proof.Gen.ReferenceIdeal
import proofs.«161033_j72353019068534_2_alg».proof.Proof.Gen.Pre_finite_inputs
import proofs.«161033_j72353019068534_2_alg».proof.Proof.RefRun
import proofs.«161033_j72353019068534_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- From memories agreeing on the arguments both programs run, keep their arguments, and end with the same result:
    the network of the arguments. -/
theorem algebraic : Cert.algebraic_KernelIdeal_ReferenceIdeal := by
  intro m ρ m' ρ' _ hagree
  refine ⟨fun c => Cert.KernelIdeal.Result.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.Result.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11⟩ := hagree c
  rw [h0, h1, h2, h3, h4, h5, h6, h7, h8, h9, h10, h11]
  exact (Cert.Bridge.net_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
